-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S512x1024_S512x1024_0_0 : ∀ a, (![0, 0] : Fin 2 → Nat) a + S512x1024.size a ≤ S512x1024.size a
  h_S512x1024 : 0 < S512x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Consts.lean ====
/-
  The float constants of the two programs, as the extended reals their words denote: the zero the weights are
  compared with, and the two values a binarized weight takes, +1 and −1, each spelt once as a 32-bit and once as a
  16-bit word. The two spellings of +1 (and of −1) denote the same number.
-/
import Idealize.ShloMosaic.PureOps.Ideal

noncomputable section

namespace Cert.BinDense.Consts

open Idealize.ShloMosaic

/-- The word of +0.0 denotes 0. -/
theorem f32_zero : Ideal.ofBits .f32 0x00000000#32 = 0 := by
  simp [Ideal.ofBits, Ideal.ieee]

/-- The 32-bit word of 1.0 denotes 1. -/
theorem f32_one : Ideal.ofBits .f32 0x3F800000#32 = 1 := by
  simp [Ideal.ofBits, Ideal.ieee, -EReal.coe_mul]; norm_num

/-- The 16-bit word of 1.0 denotes 1. -/
theorem bf16_one : Ideal.ofBits .bf16 0x3F80#16 = 1 := by
  simp [Ideal.ofBits, Ideal.ieee, -EReal.coe_mul]; norm_num

/-- The 32-bit word of −1.0 denotes −1. -/
theorem f32_neg_one : Ideal.ofBits .f32 0xBF800000#32 = -1 := by
  simp [Ideal.ofBits, Ideal.ieee, -EReal.coe_mul]; norm_num

/-- The 16-bit word of −1.0 denotes −1. -/
theorem bf16_neg_one : Ideal.ofBits .bf16 0xBF80#16 = -1 := by
  simp [Ideal.ofBits, Ideal.ieee, -EReal.coe_mul]; norm_num

end Cert.BinDense.Consts

end
-- ==== Proof.Spec.lean ====
/-
  The specification: a dense layer with binarized weights.

  For x of shape [8192, 4096], weights w of shape [4096, 4096] and a bias b of length 4096, entry (r, c) of the result
  is  Σ_k x(r, k) · s(w(k, c)) + b(c),  where s(v) = +1 if v ≥ 0 and −1 otherwise. The sum runs over all 4096 values
  of k at once; a program may compute it in any grouping, since addition of extended reals is associative and
  commutative, and nothing else about the sum is used.
-/
import Idealize.ShloMosaic.PureOps.Ideal
import Idealize.ShloMosaic.Lib.ValueIdx

noncomputable section

namespace Cert.BinDense

open Idealize.ShloMosaic Idealize.ShloMosaic.ValueIdx

/-- The binarized weight: +1 where the weight is at least zero, −1 elsewhere. -/
def binW (v : EReal) : EReal :=
  Scalar.select (FloatOps.cmpf (F := Ideal) (φ := .f32) .oge v (Ideal.ofBits .f32 0x00000000#32)) (1 : EReal) (-1 : EReal)

/-- One term of an entry's sum: x(r, k) · s(w(k, c)), for any natural k (zero past the last column). -/
def term (x : (⟨2, ![8192, 4096]⟩ : Shape).Idx → EReal) (w : (⟨2, ![4096, 4096]⟩ : Shape).Idx → EReal)
    (r : Fin 8192) (c : Fin 4096) (k : ℕ) : EReal :=
  if h : k < 4096 then x (ix2 r ⟨k, h⟩) * binW (w (ix2 ⟨k, h⟩ c)) else 0

/-- The layer's result at entry (r, c). -/
def denseAt (x : (⟨2, ![8192, 4096]⟩ : Shape).Idx → EReal) (w : (⟨2, ![4096, 4096]⟩ : Shape).Idx → EReal)
    (b : (⟨1, ![4096]⟩ : Shape).Idx → EReal) (r : Fin 8192) (c : Fin 4096) : EReal :=
  (∑ k : Fin 4096, x (ix2 r k) * binW (w (ix2 k c))) + b (ix1 c)

/-- The layer's result as an array. -/
def dense (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => denseAt x w b (i 0) (i 1)

/-- The sum over all k as a sum over the first 4096 naturals of the terms. -/
theorem sum_eq_range (x : (⟨2, ![8192, 4096]⟩ : Shape).Idx → EReal) (w : (⟨2, ![4096, 4096]⟩ : Shape).Idx → EReal)
    (r : Fin 8192) (c : Fin 4096) :
    ∑ k : Fin 4096, x (ix2 r k) * binW (w (ix2 k c)) = ∑ k ∈ Finset.range 4096, term x w r c k := by
  rw [← Fin.sum_univ_eq_sum_range (term x w r c) 4096]
  refine Finset.sum_congr rfl fun k _ => ?_
  unfold term
  rw [dif_pos k.isLt]

end Cert.BinDense

end
-- ==== Proof.BodySteps.lean ====
/-
  What one grid point's body computes, entry by entry, on the extended reals.

  A point holds a 2048 × 512 block of x, a 512 × 1024 block of the weights and a 2048 × 1024 block of the result.
  Its three values are: the zero block the first point of a run starts from; the block "what was there, plus the
  product of the x block with the binarized weight block" — entry (p, q) gains Σ_k x(p, k) · s(w(k, q)) over the 512
  columns k of the block —; and the block "what was there, plus the bias row", where row 0 of a 1 × 1024 block is
  added to every row. Rounding the operands of the product to 16 bits changes nothing on the extended reals, and the
  16-bit words of +1 and −1 denote the same numbers as the 32-bit ones.
-/
import proofs.«137327_j84421877170698_2_alg».proof.Proof.Gen.KernelIdeal.Skeleton
import proofs.«137327_j84421877170698_2_alg».proof.Proof.LibPlainMatmul
import proofs.«137327_j84421877170698_2_alg».proof.Proof.Consts
import proofs.«137327_j84421877170698_2_alg».proof.Proof.Spec
import Idealize.ShloMosaic.Lib.Pipeline.Value

noncomputable section

namespace Cert.BinDense.Body

open Cert.KernelIdeal Cert.KernelIdeal.Gen Idealize.ShloMosaic Idealize.ShloMosaic.ValueIdx

/-- The block a run starts from is zero everywhere. -/
theorem zero_block_apply (j : S2048x1024.Idx) : k0_pay1 (F := Ideal) j = 0 :=
  Consts.f32_zero

/-- Entry (p, q) after a point's accumulation: the entry before, plus the block product's entry. -/
theorem accumulate_apply (wb : Vec Ideal S512x1024 .f32) (xb : Vec Ideal S2048x512 .f32) (acc : Vec Ideal S2048x1024 .f32)
    (p : Fin 2048) (q : Fin 1024) :
    k0_pay2 wb xb acc (ix2 p q) = acc (ix2 p q) + ∑ k : Fin 512, xb (ix2 p k) * binW (wb (ix2 k q)) := by
  have e1 : shapeCast S2048x1024 acc shapeCasts_S2048x1024_S2048x1024 = acc := shapeCast_self acc _
  show (shapeCast S2048x1024 acc shapeCasts_S2048x1024_S2048x1024) (ix2 p q)
      + matmul (F := Ideal) dot_S2048x512_S512x1024_S2048x1024_1_0_0_1_n_n none
          (truncf (F := Ideal) .bf16 (xb : FVec Ideal S2048x512 .f32) bitsLt_bf16_f32)
          (select (cmpf (F := Ideal) .oge (wb : FVec Ideal S512x1024 .f32) (broadcast S512x1024 (Scalar.ofBits (F := Ideal) .f32 0x00000000#32)))
            (broadcast S512x1024 (Scalar.ofBits (F := Ideal) .bf16 0x3F80#16)) (broadcast S512x1024 (Scalar.ofBits (F := Ideal) .bf16 0xBF80#16)))
          (constant (F := Ideal) S2048x1024 .f32 0x00000000#32) (ix2 p q) = _
  rw [e1]
  refine congrArg (acc (ix2 p q) + ·) ?_
  refine (Cert.PlainMatmul.matmul_zero_apply 2048 512 1024 none _ _ p q).trans ?_
  refine Finset.sum_congr rfl fun k _ => ?_
  show xb (ix2 p k) * Scalar.select (FloatOps.cmpf .oge (wb (ix2 k q)) (Ideal.ofBits .f32 0x00000000#32))
      (Ideal.ofBits .bf16 0x3F80#16) (Ideal.ofBits .bf16 0xBF80#16) = xb (ix2 p k) * binW (wb (ix2 k q))
  rw [Consts.bf16_one, Consts.bf16_neg_one]
  rfl

/-- Entry (p, q) after the bias is added: the entry before, plus the bias row's entry q. -/
theorem add_bias_apply (v : Vec Ideal S2048x1024 .f32) (b : Vec Ideal S1x1024 .f32) (p : Fin 2048) (q : Fin 1024) :
    k0_pay3 v b (ix2 p q) = v (ix2 p q) + b (ix2 (0 : Fin 1) q) := by
  have e1 : shapeCast S2048x1024 v shapeCasts_S2048x1024_S2048x1024 = v := shapeCast_self v _
  have e2 : shapeCast S1x1024 b shapeCasts_S1x1024_S1x1024 = b := shapeCast_self b _
  show (shapeCast S2048x1024 v shapeCasts_S2048x1024_S2048x1024) (ix2 p q)
      + broadcastTo S2048x1024 (shapeCast S1x1024 b shapeCasts_S1x1024_S1x1024) broadcasts_S1x1024_S2048x1024 (ix2 p q) = (_ : EReal)
  rw [e1, e2]
  refine congrArg (v (ix2 p q) + ·) ?_
  refine broadcastTo_apply b _ (ix2 p q) (ix2 (0 : Fin 1) q) (fun a => ?_)
  match a with
  | ⟨0, _⟩ => show (0 : ℕ) = if (1 : ℕ) = 1 then 0 else p.val; rw [if_pos rfl]
  | ⟨1, _⟩ => show q.val = if (1024 : ℕ) = 1 then 0 else q.val; rw [if_neg (by decide)]

end Cert.BinDense.Body

end
-- ==== Proof.Fold.lean ====
/-
  A run of eight consecutive grid points, read at one entry of the result block.

  The first point of a run starts from zeros and adds its block product; each of the next six adds its own; the
  eighth adds its own and then the bias row. So after the eighth point entry (p, q) of the block holds the sum, over
  the eight points s of the run, of Σ_k x_s(p, k) · s(w_s(k, q)) (x_s, w_s the blocks point s holds), plus entry q of
  the bias row the last point holds. Only associativity of the sum is used. The blocks are arbitrary here: any family
  of blocks indexed by the point, not yet the blocks of particular arrays.
-/
import proofs.«137327_j84421877170698_2_alg».proof.Proof.BodySteps

noncomputable section

namespace Cert.BinDense.Fold

open Cert.KernelIdeal Cert.KernelIdeal.Gen Idealize.ShloMosaic Idealize.ShloMosaic.ValueIdx Cert.BinDense.Body

variable {N : ℕ}
variable (xs : (n : ℕ) → n < N → Vec Ideal S2048x512 .f32) (ws : (n : ℕ) → n < N → Vec Ideal S512x1024 .f32)
  (bs : (n : ℕ) → n < N → Vec Ideal S1x1024 .f32)

/-- What the first point of a run leaves: zeros plus its block product. -/
def first (n : ℕ) (h : n < N) : Vec Ideal S2048x1024 .f32 :=
  k0_pay2 (ws n h) (xs n h) (k0_pay1 (F := Ideal))

/-- What a later point leaves over what the point before left: its block product added, and at the last point of a
    run (n ≡ 7 mod 8) the bias row added after that. -/
def next (n : ℕ) (h : n < N) (acc : Vec Ideal S2048x1024 .f32) : Vec Ideal S2048x1024 .f32 :=
  if ¬n % 8 = 0 ∧ ¬n % 8 = 7 then k0_pay2 (ws n h) (xs n h) acc
  else if ¬n % 8 = 0 ∧ n % 8 = 7 then k0_pay3 (k0_pay2 (ws n h) (xs n h) acc) (bs n h)
  else acc

theorem next_mid (n : ℕ) (h : n < N) (acc : Vec Ideal S2048x1024 .f32) (hn : ¬n % 8 = 0 ∧ ¬n % 8 = 7) :
    next xs ws bs n h acc = k0_pay2 (ws n h) (xs n h) acc := by
  unfold next
  rw [if_pos hn]

theorem next_last (n : ℕ) (h : n < N) (acc : Vec Ideal S2048x1024 .f32) (h0 : ¬n % 8 = 0) (h7 : n % 8 = 7) :
    next xs ws bs n h acc = k0_pay3 (k0_pay2 (ws n h) (xs n h) acc) (bs n h) := by
  unfold next
  rw [if_neg (fun hh => hh.2 h7), if_pos ⟨h0, h7⟩]

/-- Point n's contribution to entry j of the block: its block product's entry (zero for n past the grid). -/
def addend (n : ℕ) (j : S2048x1024.Idx) : EReal :=
  if h : n < N then ∑ k : Fin 512, xs n h (ix2 (j 0) k) * binW (ws n h (ix2 k (j 1))) else 0

theorem addend_apply (n : ℕ) (h : n < N) (p : Fin 2048) (q : Fin 1024) :
    addend xs ws n (ix2 p q) = ∑ k : Fin 512, xs n h (ix2 p k) * binW (ws n h (ix2 k q)) := by
  unfold addend
  rw [dif_pos h]

/-- After the first seven points of a run from b (b a multiple of 8): zero plus the seven contributions. -/
theorem seven_apply (b : ℕ) (hb : b % 8 = 0) (h : b + 6 < N) (j : S2048x1024.Idx) :
    Pipeline.accAt (first xs ws) (next xs ws bs) b 6 h j
      = 0 + ∑ s ∈ Finset.range 7, addend xs ws (b + s) j := by
  refine Pipeline.accAt_add_apply (first xs ws) (next xs ws bs) (fun _ => (0 : EReal)) (addend xs ws) b 6 ?_ ?_ 6 (le_refl 6) h j
  · intro h0 i
    obtain ⟨p, q, rfl⟩ : ∃ (p : Fin 2048) (q : Fin 1024), i = ix2 p q := ⟨i 0, i 1, eq_ix2 i⟩
    rw [addend_apply xs ws b h0 p q]
    unfold first
    refine (accumulate_apply (ws b h0) (xs b h0) _ p q).trans ?_
    rw [zero_block_apply]
  · intro n hn acc i h1 h2
    obtain ⟨p, q, rfl⟩ : ∃ (p : Fin 2048) (q : Fin 1024), i = ix2 p q := ⟨i 0, i 1, eq_ix2 i⟩
    rw [addend_apply xs ws n hn p q]
    rw [next_mid xs ws bs n hn acc (by omega)]
    exact accumulate_apply (ws n hn) (xs n hn) acc p q

/-- After all eight points of a run from b: the eight contributions and the last point's bias row. -/
theorem run_apply (b : ℕ) (hb : b % 8 = 0) (h : b + 7 < N) (p : Fin 2048) (q : Fin 1024) :
    Pipeline.accAt (first xs ws) (next xs ws bs) b 7 h (ix2 p q)
      = (∑ s ∈ Finset.range 8, ∑ k : Fin 512, (if hs : b + s < N then xs (b + s) hs (ix2 p k) * binW (ws (b + s) hs (ix2 k q)) else 0))
        + bs (b + 7) h (ix2 (0 : Fin 1) q) := by
  rw [Pipeline.accAt_succ, next_last xs ws bs (b + (6 + 1)) h _ (by omega) (by omega)]
  refine (add_bias_apply _ (bs (b + 7) h) p q).trans ?_
  refine congrArg (· + bs (b + 7) h (ix2 (0 : Fin 1) q)) ?_
  refine (accumulate_apply (ws (b + 7) h) (xs (b + 7) h) _ p q).trans ?_
  rw [seven_apply xs ws bs b hb (Nat.lt_of_succ_lt h) (ix2 p q), zero_add, ← addend_apply xs ws (b + 7) h p q,
    ← Finset.sum_range_succ (fun s => addend xs ws (b + s) (ix2 p q)) 7]
  refine Finset.sum_congr rfl fun s hs => ?_
  have hs' : b + s < N := by have := Finset.mem_range.mp hs; omega
  rw [addend_apply xs ws (b + s) hs' p q]
  refine Finset.sum_congr rfl fun k _ => ?_
  rw [dif_pos hs']

end Cert.BinDense.Fold

end
-- ==== Proof.Blocks.lean ====
/-
  The blocks a grid point holds, as pieces of the argument arrays.

  The grid has 4 × 4 × 8 points; point t is (t / 32, t / 8 mod 4, t mod 8) = (row tile, column tile, step). It holds
  rows 2048·(t / 32) … of x and columns 512·(t mod 8) … of them; rows 512·(t mod 8) … of the weights and columns
  1024·(t / 8 mod 4) … of them; and columns 1024·(t / 8 mod 4) … of the bias, which reaches the grid as a 1 × 4096
  array holding the same 4096 numbers in the same order.
-/
import proofs.«137327_j84421877170698_2_alg».proof.Proof.Gen.KernelIdeal.Value
import Idealize.ShloMosaic.Lib.ValueIdx
import Idealize.ShloMosaic.Lib.Pipeline.Value
import Idealize.ShloMosaic.Lib.StableHlo.Run

noncomputable section

namespace Cert.BinDense.Blocks

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-- Which block of each input array a point holds, checked at every point of the grid. -/
theorem index_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4 :=
  (by decide +kernel : ∀ t : Fin grid0.N, _)

/-- Entry (p, k) of the x block at point t is x(2048·(t / 32) + p, 512·(t mod 8) + k). -/
theorem x_block (c : Dev nD) (t : Fin cfg0.N) (p : Fin 2048) (k : Fin 512) (r : Fin 8192) (col : Fin 4096)
    (hr : r.val = t.val / 32 * 2048 + p.val) (hc : col.val = t.val % 8 * 512 + k.val) :
    iblk m c 0 t (ix2 p k) = m ((c : Thread nD τ).loc main_arg0) (ix2 r col) := by
  obtain ⟨e0, e1, -⟩ := index_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = r.val; omega
  | ⟨1, _⟩ => show win0_0.index t (1 : Fin 2) * 512 + 1 * k.val = col.val; omega

/-- Entry (k, q) of the weight block at point t is w(512·(t mod 8) + k, 1024·(t / 8 mod 4) + q). -/
theorem w_block (c : Dev nD) (t : Fin cfg0.N) (k : Fin 512) (q : Fin 1024) (row : Fin 4096) (col : Fin 4096)
    (hr : row.val = t.val % 8 * 512 + k.val) (hc : col.val = t.val / 8 % 4 * 1024 + q.val) :
    iblk m c 1 t (ix2 k q) = m ((c : Thread nD τ).loc main_arg1) (ix2 row col) := by
  obtain ⟨-, -, e0, e1, -⟩ := index_facts t
  show V m c main_arg1 (((cfg0.win 1).blk t).view.emb (ix2 k q)) = _
  rw [V_main_arg1]
  refine congrArg _ (funext fun a => Fin.ext ?_)
  match a with
  | ⟨0, _⟩ => show win0_1.index t (0 : Fin 2) * 512 + 1 * k.val = row.val; omega
  | ⟨1, _⟩ => show win0_1.index t (1 : Fin 2) * 1024 + 1 * q.val = col.val; omega

/-- The 1 × 4096 array the grid finds is the bias, its 4096 numbers in the same order. -/
theorem bias_row (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- Entry (0, q) of the bias block at point t is b(1024·(t / 8 mod 4) + q). -/
theorem b_block (c : Dev nD) (t : Fin cfg0.N) (q : Fin 1024) (col : Fin 4096)
    (hc : col.val = t.val / 8 % 4 * 1024 + q.val) :
    iblk m c 2 t (ix2 (0 : Fin 1) q) = m ((c : Thread nD τ).loc main_arg2) (ix1 col) := by
  obtain ⟨-, -, -, -, e0, e1⟩ := index_facts t
  show (V m c main_v0 : S1x4096.Idx → EReal) (((cfg0.win 2).blk t).view.emb (ix2 (0 : Fin 1) q)) = _
  rw [bias_row]
  refine shapeCast_apply _ _ _ (ix1 col) ?_
  rw [Shape.rowMajor_val_one, Shape.rowMajor_val_two]
  show col.val = (win0_2.index t (0 : Fin 2) * 1 + 1 * 0) * 4096 + (win0_2.index t (1 : Fin 2) * 1024 + 1 * q.val)
  omega

end Cert.BinDense.Blocks

end
-- ==== Proof.LibBlockSums.lean ====
/-
  A sum over consecutive rows, cut into blocks.

  The rows 0 … A·B − 1 are A consecutive blocks of B rows, row a·B + b being row b of block a; a sum over the rows is the
  sum over the blocks of the sums over each block's rows, and so is a sum restricted to the rows that satisfy a
  predicate (the rows of one class): it is the sum over the blocks of the sums over each block's rows of the class.
  The same from a base row on, and for a stretch of rows cut in two. These are the regroupings behind "every worker
  sums its own rows, the partial sums are added up": no order or grouping is left in a sum of a commutative monoid.
-/
import Idealize.ShloMosaic.PureOps.Ideal

open scoped BigOperators

namespace Cert.LibBlockSums

variable {M : Type*} [AddCommMonoid M]

/-- A·B consecutive rows as A blocks of B. -/
theorem sum_range_mul (A B : ℕ) (f : ℕ → M) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- The rows of a class among A·B consecutive rows, block by block. -/
theorem sum_filter_range_mul (A B : ℕ) (p : ℕ → Prop) [DecidablePred p] (f : ℕ → M) :
    ∑ n ∈ (Finset.range (A * B)).filter p, f n
      = ∑ a ∈ Finset.range A, ∑ b ∈ (Finset.range B).filter (fun b => p (a * B + b)), f (a * B + b) := by
  rw [Finset.sum_filter, sum_range_mul]
  refine Finset.sum_congr rfl fun a _ => ?_
  rw [Finset.sum_filter]

/-- The same for the rows base … base + A·B − 1. -/
theorem sum_filter_range_mul_from (base A B : ℕ) (p : ℕ → Prop) [DecidablePred p] (f : ℕ → M) :
    ∑ n ∈ (Finset.range (A * B)).filter (fun n => p (base + n)), f (base + n)
      = ∑ a ∈ Finset.range A, ∑ b ∈ (Finset.range B).filter (fun b => p (base + (a * B + b))), f (base + (a * B + b)) :=
  sum_filter_range_mul A B (fun n => p (base + n)) (fun n => f (base + n))

/-- A stretch of rows cut in two: the first N₁ rows and the N₂ rows after them. -/
theorem sum_filter_range_add (N₁ N₂ : ℕ) (p : ℕ → Prop) [DecidablePred p] (f : ℕ → M) :
    ∑ n ∈ (Finset.range (N₁ + N₂)).filter p, f n
      = ∑ n ∈ (Finset.range N₁).filter p, f n + ∑ n ∈ (Finset.range N₂).filter (fun n => p (N₁ + n)), f (N₁ + n) := by
  rw [Finset.sum_filter, Finset.sum_range_add, Finset.sum_filter, Finset.sum_filter]

/-- A sum over the rows of a class as a sum over all rows of the row's term or zero: the form an accumulating scatter
    reads at one element. -/
theorem sum_filter_eq_sum_ite (N : ℕ) (p : ℕ → Prop) [DecidablePred p] (f : ℕ → M) :
    ∑ n ∈ (Finset.range N).filter p, f n = ∑ n ∈ Finset.range N, (if p n then f n else 0) :=
  Finset.sum_filter _ _

/-- A sum over `Fin N` is the sum over the first N natural numbers of any extension of the summand. -/
theorem sum_fin_eq_sum_range (N : ℕ) (f : ℕ → M) : ∑ n : Fin N, f n.val = ∑ n ∈ Finset.range N, f n :=
  Fin.sum_univ_eq_sum_range f N

end Cert.LibBlockSums
-- ==== Proof.KernelValue.lean ====
/-
  The array the grid leaves is the specification of the three arguments.

  Entry (r, c) of the result lies in the block of row tile r / 2048 and column tile c / 1024, which the run of eight
  points 8·(4·(r / 2048) + c / 1024) … + 7 fills and its last point writes back. Step s of that run contributes
  Σ_{k < 512} x(r, 512·s + k) · s(w(512·s + k, c)); the eight contributions are the sum over all 4096 columns cut
  into eight stretches of 512, and the bias row the last point holds gives b(c).
-/
import proofs.«137327_j84421877170698_2_alg».proof.Proof.Fold
import proofs.«137327_j84421877170698_2_alg».proof.Proof.Blocks
import proofs.«137327_j84421877170698_2_alg».proof.Proof.LibBlockSums

noncomputable section

namespace Cert.BinDense.Kernel

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-- The result array after the run, entry by entry. -/
theorem result_eq (c : Dev nD) :
    Cert.KernelIdeal.Value.G3 m c
      = dense (m ((c : Thread nD τ).loc main_arg0)) (m ((c : Thread nD τ).loc main_arg1)) (m ((c : Thread nD τ).loc main_arg2)) := by
  funext i
  obtain ⟨r, col, rfl⟩ : ∃ (r : Fin 8192) (col : Fin 4096), i = ix2 r col := ⟨i 0, i 1, eq_ix2 i⟩
  have hr : r.val < 8192 := r.isLt
  have hcol : col.val < 4096 := col.isLt
  have hN : cfg0.N = 128 := N_0
  have hrun : Cert.KernelIdeal.Value.run3Of (ix2 r col) = 4 * (r.val / 2048) + col.val / 1024 := by
    show 4 * (r.val / 2048 - 0) + 1 * (col.val / 1024 - 0) = _
    omega
  have hlt : 8 * Cert.KernelIdeal.Value.run3Of (ix2 r col) + 7 < cfg0.N := by rw [hrun, hN]; omega
  have hloc : Cert.KernelIdeal.Value.loc3Of (ix2 r col)
      = ix2 (⟨r.val % 2048, Nat.mod_lt _ (by decide)⟩ : Fin 2048) (⟨col.val % 1024, Nat.mod_lt _ (by decide)⟩ : Fin 1024) :=
    funext fun a => by
      match a with
      | ⟨0, _⟩ => rfl
      | ⟨1, _⟩ => rfl
  unfold Cert.KernelIdeal.Value.G3
  rw [dif_pos hlt, hloc]
  refine (Fold.run_apply (N := cfg0.N) (fun n h => iblk m c 0 ⟨n, h⟩) (fun n h => iblk m c 1 ⟨n, h⟩)
    (fun n h => iblk m c 2 ⟨n, h⟩) (8 * Cert.KernelIdeal.Value.run3Of (ix2 r col)) (by omega) hlt _ _).trans ?_
  show _ = denseAt _ _ _ r col
  unfold denseAt
  refine congrArg₂ (· + ·) ?_ ?_
  · rw [sum_eq_range, Cert.LibBlockSums.sum_range_mul 8 512]
    refine Finset.sum_congr rfl fun s hs => ?_
    have hs8 : s < 8 := Finset.mem_range.mp hs
    have hs' : 8 * Cert.KernelIdeal.Value.run3Of (ix2 r col) + s < cfg0.N := by omega
    rw [← Fin.sum_univ_eq_sum_range (fun k' => term _ _ r col (s * 512 + k')) 512]
    refine Finset.sum_congr rfl fun k _ => ?_
    have hk : k.val < 512 := k.isLt
    have hkk : s * 512 + k.val < 4096 := by omega
    rw [dif_pos hs']
    unfold term
    rw [dif_pos hkk]
    rw [Blocks.x_block m c ⟨8 * Cert.KernelIdeal.Value.run3Of (ix2 r col) + s, hs'⟩ _ k r ⟨s * 512 + k.val, hkk⟩
        (by show r.val = (8 * Cert.KernelIdeal.Value.run3Of (ix2 r col) + s) / 32 * 2048 + r.val % 2048; rw [hrun]; omega)
        (by show s * 512 + k.val = (8 * Cert.KernelIdeal.Value.run3Of (ix2 r col) + s) % 8 * 512 + k.val; omega),
      Blocks.w_block m c ⟨8 * Cert.KernelIdeal.Value.run3Of (ix2 r col) + s, hs'⟩ k _ ⟨s * 512 + k.val, hkk⟩ col
        (by show s * 512 + k.val = (8 * Cert.KernelIdeal.Value.run3Of (ix2 r col) + s) % 8 * 512 + k.val; omega)
        (by show col.val = (8 * Cert.KernelIdeal.Value.run3Of (ix2 r col) + s) / 8 % 4 * 1024 + col.val % 1024; rw [hrun]; omega)]
  · exact Blocks.b_block m c ⟨8 * Cert.KernelIdeal.Value.run3Of (ix2 r col) + 7, hlt⟩ _ col
      (by show col.val = (8 * Cert.KernelIdeal.Value.run3Of (ix2 r col) + 7) / 8 % 4 * 1024 + col.val % 1024; rw [hrun]; omega)

end Cert.BinDense.Kernel

end
-- ==== Proof.RefRead.lean ====
/-
  The reference, entry by entry: a product of x with the binarized weights over all 4096 columns at once, plus the
  bias broadcast down the rows — the specification itself. The reference spells +1 and −1 as 32-bit words.
-/
import proofs.«137327_j84421877170698_2_alg».proof.Proof.Gen.ReferenceIdeal.Read
import proofs.«137327_j84421877170698_2_alg».proof.Proof.Consts
import proofs.«137327_j84421877170698_2_alg».proof.Proof.Spec

noncomputable section

namespace Cert.BinDense.Ref

open Cert.ReferenceIdeal Cert.ReferenceIdeal.Gen Cert.ReferenceIdeal.Read Idealize.ShloMosaic Idealize.ShloMosaic.ValueIdx

/-- The reference's binarized weight at an entry is s(w) there. -/
theorem bin_apply (w : (⟨S4096x4096, .f32⟩ : BufTy).Contents (Elt Ideal)) (j : S4096x4096.Idx) :
    val_main_v3 (F := Ideal) w j = binW (w j) := by
  show Scalar.select (FloatOps.cmpf (F := Ideal) .oge (w j) (val_main_v0 (F := Ideal) j))
      (val_main_call0_v0 (F := Ideal) j) (val_main_call0_v1 (F := Ideal) j) = _
  rw [val_main_v0_apply, val_main_call0_v0_apply, val_main_call0_v1_apply]
  show Scalar.select (FloatOps.cmpf (F := Ideal) .oge (w j) (Ideal.ofBits .f32 0x00000000#32))
      (Ideal.ofBits .f32 0x3F800000#32) (Ideal.ofBits .f32 0xBF800000#32) = _
  rw [Consts.f32_one, Consts.f32_neg_one]
  rfl

/-- The reference's result is the specification of its three arguments. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v7 (F := Ideal) x w b = dense x w b := by
  funext i
  obtain ⟨r, col, rfl⟩ : ∃ (r : Fin 8192) (col : Fin 4096), i = ix2 r col := ⟨i 0, i 1, eq_ix2 i⟩
  rw [val_main_v7_apply, val_main_v4_apply, val_main_v6_apply, val_main_v5_apply]
  show (∑ k : Fin 4096, x (lidx_main_v4 (ix2 r col) k) * val_main_v3 (F := Ideal) w (ridx_main_v4 (ix2 r col) k))
      + b (idx_main_v5 (idx_main_v6 (ix2 r col))) = denseAt x w b r col
  unfold denseAt
  refine congrArg₂ (· + ·) (Finset.sum_congr rfl fun k _ => ?_) (congrArg b (funext fun a => ?_))
  · have el : lidx_main_v4 (ix2 r col) k = ix2 r k := funext fun a => Fin.ext (by
      match a with
      | ⟨0, _⟩ => rfl
      | ⟨1, _⟩ => rfl)
    have er : ridx_main_v4 (ix2 r col) k = ix2 k col := funext fun a => Fin.ext (by
      match a with
      | ⟨0, _⟩ => rfl
      | ⟨1, _⟩ => rfl)
    rw [el, er, bin_apply]
  · match a with
    | ⟨0, _⟩ => rfl

end Cert.BinDense.Ref

end
-- ==== Proof.lean ====
/-
  A dense layer with binarized weights: y = x · s(W) + b, where s(v) = +1 for v ≥ 0 and −1 otherwise, over
  x : [8192, 4096], W : [4096, 4096], b : [4096].

  The kernel tiles the result into 2048 × 1024 blocks and, for each block, walks the 4096 columns of x in eight
  steps of 512: the first step starts the block from zero, every step adds the product of its x block with its
  binarized weight block, and the last step adds the bias row. The reference is one product over all 4096 columns
  plus the bias. On the extended reals the two agree entry by entry: the eight partial sums of 512 terms are the one
  sum of 4096 terms regrouped (addition is associative and commutative there, infinities included), rounding the
  product's operands to 16 bits is the identity, and the 16-bit and 32-bit words of ±1 denote the same numbers. No
  finiteness of the inputs is used.

  Both sides are set against one specification (Proof/Spec.lean): the kernel's result array by Proof/KernelValue.lean
  (a run of eight points read at an entry, Proof/Fold.lean; the blocks as pieces of the arguments, Proof/Blocks.lean;
  a point's arithmetic, Proof/BodySteps.lean), the reference's by Proof/RefRead.lean. The idealized kernel differs
  from the kernel by no recorded rewrite, so that conjunct is trivial.
-/
import proofs.«137327_j84421877170698_2_alg».proof.Defs
import proofs.«137327_j84421877170698_2_alg».proof.Proof.Gen.Kernel.Frame
import proofs.«137327_j84421877170698_2_alg».proof.Proof.Gen.KernelIdeal.Value
import proofs.«137327_j84421877170698_2_alg».proof.Proof.Gen.Pre_finite_inputs
import proofs.«137327_j84421877170698_2_alg».proof.Proof.Gen.ReferenceIdeal.Run
import proofs.«137327_j84421877170698_2_alg».proof.Proof.KernelValue
import proofs.«137327_j84421877170698_2_alg».proof.Proof.RefRead
import Idealize.ShloMosaic.Adequacy
import Idealize.ShloMosaic.Init

noncomputable section

namespace Cert.Proof

open Idealize.ShloMosaic Idealize.SL.Sem

/-- Every execution of the idealized kernel ends, faults nowhere and leaves its arguments as they were. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, W and b the two programs end with the same array: each side's result is the
    specification of the three arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v7_eq, Cert.BinDense.Ref.result_eq, (hagree c).1, (hagree c).2.1, (hagree c).2.2]
  exact (Cert.BinDense.Kernel.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
